-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x4096 .f32) (main_arg1 : FVec F S64x4096 .f32) (main_arg2 : FVec F S64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x4096 : Shape := ⟨2, ![16384, 4096]⟩
abbrev S64x4096 : Shape := ⟨2, ![64, 4096]⟩
abbrev S64 : Shape := ⟨1, ![64]⟩
abbrev S1x64 : Shape := ⟨2, ![1, 64]⟩
abbrev S64x16384 : Shape := ⟨2, ![64, 16384]⟩
abbrev S1024x2048 : Shape := ⟨2, ![1024, 2048]⟩
abbrev S64x1024 : Shape := ⟨2, ![64, 1024]⟩
abbrev S64x2048 : Shape := ⟨2, ![64, 2048]⟩
abbrev S64x1 : Shape := ⟨2, ![64, 1]⟩
abbrev S1024 : Shape := ⟨1, ![1024]⟩
abbrev S1x1024 : Shape := ⟨2, ![1, 1024]⟩
abbrev S16384x64 : Shape := ⟨2, ![16384, 64]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S64x16384, .f32⟩
  | .hbm, ⟨5, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x4096, .f32⟩
  | .local _ .vmem, ⟨3, _⟩ => ⟨S1x64, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let c0 : Index := 0#32
  let arg1 : BitVec 32 := BitVec.ofNat 32 (i 1).val
  let c2048_i32 : BitVec 32 := 2048#32
  let v0 : BitVec 32 := Scalar.muli arg1 c2048_i32
  let v1 : Index := Scalar.indexCast v0
  ![0, v1.toNat]
def k0_cond2 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64_S1x64 : S64.ShapeCasts S1x64
  h_S64x2048 : 0 < S64x2048.numel
  inb_S1024x2048_S1024x2048_0_0 : ∀ a, (![0, 0] : Fin 2 → Nat) a + S1024x2048.size a ≤ S1024x2048.size a
  h_S1024x2048 : 0 < S1024x2048.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x1024 : S64x1.Broadcasts S64x1024
  reduces_S64x1024_S1024 : S64x1024.Reduces [0] S1024
  shapeCasts_S1024_S1x1024 : S1024.ShapeCasts S1x1024
  broadcasts_S1x1024_S64x1024 : S1x1024.Broadcasts S64x1024
  transposes_S64x16384_S16384x64_1_0 : S64x16384.Transposes [1, 0] S16384x64
  dot_S64x2048_S1024x2048_S64x1024_1_1_0_0_n_n_wf : DotDims.WF S64x2048 S1024x2048 S64x1024 [1] [1] [0] [0] [] []
  hrank0 : 0 < grid0.rank
  k0_off1_inb : ∀ i : grid0.Coords, ∀ a, (k0_off1 i) a + S64x2048.size a ≤ S64x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x4096.size a
  hwx0_0 : ∀ i : grid0.Coords, EltTy.bits .f32 = 32 ∨ (Rect.block (s := S16384x4096) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x16384.size a
  hwx0_3 : ∀ i : grid0.Coords, EltTy.bits .f32 = 32 ∨ (Rect.block (s := S64x16384) S64x1024.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S64x4096 : Shape := ⟨2, ![64, 4096]⟩
abbrev S64 : Shape := ⟨1, ![64]⟩
abbrev S4096x64 : Shape := ⟨2, ![4096, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x4096_S4096x64_S16384x64_1_0_0_1_n_n_wf : DotDims.WF S16384x4096 S4096x64 S16384x64 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.Softmax.lean ====
/-
  The mathematics both programs compute, stated once over the extended reals and over no program.

  A token `t` (one of 16384 rows of `x`) gets one SCORE per expert `e` (one of 64 rows of `W`): the inner product of
  the token's 4096 coordinates with the expert's weights, plus the expert's bias. The token's GATE is the softmax of its 64
  scores: each score less the row's greatest score, exponentiated, divided by the sum of the 64 exponentials.

  One side contracts all 4096 coordinates at once, token coordinate times weight; the other contracts the two halves
  of 2048 separately, weight times token coordinate, and adds the two partial scores before the bias. On the extended
  reals these agree by commutativity of the product and by splitting a finite sum at 2048: no finiteness is used, since
  addition and multiplication of extended reals are commutative and addition is associative at the infinities too.
-/
import Idealize.ShloMosaic.PureOps.Ideal
import Idealize.ShloMosaic.PureOps.Ideal.Laws
import Idealize.ShloMosaic.Lib.ValueIdx

noncomputable section

open scoped BigOperators

namespace Cert.Gating

open Idealize.ShloMosaic Idealize.ShloMosaic.ValueIdx

/-- The tokens' array, the experts' weights, the experts' biases, and the gates. -/
abbrev Tokens : Type := (⟨2, ![16384, 4096]⟩ : Shape).Idx → EReal
abbrev Weights : Type := (⟨2, ![64, 4096]⟩ : Shape).Idx → EReal
abbrev Biases : Type := (⟨1, ![64]⟩ : Shape).Idx → EReal

/-- The greatest of a row of 64 scores, folded with `max` from the f32 pattern of −∞. -/
def rowMax (z : Fin 64 → EReal) : EReal :=
  (Finset.univ : Finset (Fin 64)).fold max (Ideal.ofBits .f32 0xFF800000#32) z

/-- The softmax of a row of 64 scores, at expert `e`: `exp (z e − max z) / ∑ e', exp (z e' − max z)`. -/
def softmax (z : Fin 64 → EReal) (e : Fin 64) : EReal :=
  Ideal.div (Ideal.exp (z e - rowMax z)) (∑ e' : Fin 64, Ideal.exp (z e' - rowMax z))

/-- Token `t`'s score for expert `e`: `∑ k, x t k · W e k + b e`. -/
def score (x : Tokens) (W : Weights) (b : Biases) (t : Fin 16384) (e : Fin 64) : EReal :=
  (∑ k : Fin 4096, x (ix2 t k) * W (ix2 e k)) + b (ix1 e)

/-- The gates, tokens by experts. -/
def gate (x : Tokens) (W : Weights) (b : Biases) : (⟨2, ![16384, 64]⟩ : Shape).Idx → EReal :=
  fun i => softmax (score x W b (i 0)) (i 1)

/-- The gates, experts by tokens: the same numbers, transposed. -/
def gateT (x : Tokens) (W : Weights) (b : Biases) : (⟨2, ![64, 16384]⟩ : Shape).Idx → EReal :=
  fun i => softmax (score x W b (i 1)) (i 0)

/-- Coordinate `d` of half `h` of the 4096 model coordinates: `2048 h + d`. -/
abbrev col (h : Fin 2) (d : Fin 2048) : Fin 4096 := ⟨2048 * h.val + d.val, by have := h.isLt; have := d.isLt; omega⟩

/-- The partial score over half `h` of the coordinates, the weight written first. -/
def halfScore (x : Tokens) (W : Weights) (h : Fin 2) (t : Fin 16384) (e : Fin 64) : EReal :=
  ∑ d : Fin 2048, W (ix2 e (col h d)) * x (ix2 t (col h d))

/-- A sum over the 4096 coordinates is the sum over the first 2048 plus the sum over the last 2048. -/
theorem sum_halves (f : Fin 4096 → EReal) :
    ∑ k : Fin 4096, f k = (∑ d : Fin 2048, f (col 0 d)) + ∑ d : Fin 2048, f (col 1 d) := by
  have h := Fin.sum_univ_add (a := 2048) (b := 2048) (f : Fin (2048 + 2048) → EReal)
  refine h.trans ?_
  congr 1

/-- The score is the two partial scores added, then the bias. -/
theorem score_eq_halves (x : Tokens) (W : Weights) (b : Biases) (t : Fin 16384) (e : Fin 64) :
    score x W b t e = (halfScore x W 0 t e + halfScore x W 1 t e) + b (ix1 e) := by
  unfold score halfScore
  rw [sum_halves]
  congr 1
  congr 1 <;> exact Finset.sum_congr rfl fun d _ => mul_comm _ _

/-- Folding `max` from a value never falls below that value: taking the maximum with it again changes nothing. -/
theorem max_rowMax (z : Fin 64 → EReal) : max (Ideal.ofBits .f32 0xFF800000#32) (rowMax z) = rowMax z :=
by
  apply max_eq_right
  unfold rowMax
  rw [Finset.le_fold_max]
  exact Or.inl le_rfl

end Cert.Gating

end
-- ==== Proof.RefGate.lean ====
/-
  The reference, stage by stage, is the gate function of the specification.

  Its logits are the scores: row `t` of `x` contracted with row `e` of `W` (the transposed weights read back at the
  swapped index), plus the bias broadcast along the tokens. Its row maximum is a fold of `max` over the 64 experts from
  −∞, then once more against −∞, which changes nothing. Its denominator is the sum over the 64 experts of the
  exponentials, from an initial zero. Its result is the quotient.
-/
import proofs.«155116_g34153579938012_cont_8to1_b_1539_14_alg».proof.Proof.Gen.ReferenceIdeal.Read
import proofs.«155116_g34153579938012_cont_8to1_b_1539_14_alg».proof.Proof.Softmax
import Idealize.ShloMosaic.Lib.ValueIdx
import Idealize.ShloMosaic.PureOps.Ideal.Laws

noncomputable section

open scoped BigOperators

namespace Cert.ReferenceIdeal.Gate

open Cert.ReferenceIdeal Cert.ReferenceIdeal.Gen Cert.ReferenceIdeal.Read
open Idealize.ShloMosaic Idealize.ShloMosaic.ValueIdx Cert.Gating

variable (x : Tokens) (W : Weights) (b : Biases)

/-- The logits stage at token `t` and expert `e` is the score. -/
theorem logits_apply (t : Fin 16384) (e : Fin 64) :
    val_main_v4 (F := Ideal) x W b (ix2 t e) = score x W b t e := by
  have e1 : ∀ k : Fin 4096, lidx_main_v1 (ix2 t e) k = ix2 t k := fun k =>
    funext fun a => Fin.ext (by match a with | ⟨0, _⟩ => rfl | ⟨1, _⟩ => rfl)
  have e2 : ∀ k : Fin 4096, idx_main_v0 (ridx_main_v1 (ix2 t e) k) = ix2 e k := fun k =>
    funext fun a => Fin.ext (by match a with | ⟨0, _⟩ => rfl | ⟨1, _⟩ => rfl)
  have e3 : idx_main_v2 (idx_main_v3 (ix2 t e)) = ix1 e :=
    funext fun a => Fin.ext (by match a with | ⟨0, _⟩ => rfl)
  rw [val_main_v4_apply, val_main_v1_apply, val_main_v3_apply, val_main_v2_apply]
  simp only [val_main_v0_apply, e1, e2, e3, Ideal.addf_def]
  rfl

/-- The axis the two reductions drop is the experts' axis. -/
theorem hred : S16384x64.Reduces [1] S16384 := by decide

/-- Token `t`'s row read along the experts' axis: index `(t, e)`. -/
theorem lift_eq (t : Fin 16384) (e : Fin 64) : hred.lift (ix1 t) e = ix2 t e :=
  funext fun a => Fin.ext (by match a with | ⟨0, _⟩ => rfl | ⟨1, _⟩ => rfl)

/-- The row maximum stage at token `t` is the greatest of the token's scores. -/
theorem rowmax_apply (t : Fin 16384) :
    val_main_v7 (F := Ideal) x W b (ix1 t) = rowMax (score x W b t) := by
  have h5 : val_main_v5 (F := Ideal) x W b (ix1 t) = rowMax (score x W b t) := by
    unfold val_main_v5
    refine (Host.reduce_eq_fold_single FloatOps.maximumf _ _ reducesTo_S16384x64_S16384_d1 hred h_S_ (ix1 t)).trans ?_
    show (Finset.univ : Finset (Fin 64)).fold max (Ideal.ofBits .f32 0xFF800000#32)
      (val_main_v4 (F := Ideal) x W b ∘ hred.lift (ix1 t)) = _
    unfold rowMax
    refine congrArg (fun f => (Finset.univ : Finset (Fin 64)).fold max (Ideal.ofBits .f32 0xFF800000#32) f) (funext fun e : Fin 64 => ?_)
    exact (congrArg (val_main_v4 (F := Ideal) x W b) (lift_eq t e)).trans (logits_apply x W b t e)
  rw [val_main_v7_apply, h5]
  exact max_rowMax _

/-- The exponentials stage at `(t, e)`. -/
theorem exps_apply (t : Fin 16384) (e : Fin 64) :
    val_main_v11 (F := Ideal) x W b (ix2 t e) = Ideal.exp (score x W b t e - rowMax (score x W b t)) := by
  have e1 : idx_main_v8 (idx_main_v9 (ix2 t e)) = ix1 t :=
    funext fun a => Fin.ext (by match a with | ⟨0, _⟩ => rfl)
  rw [val_main_v11_apply, val_main_v10_apply, val_main_v9_apply, val_main_v8_apply, e1, rowmax_apply, logits_apply]
  rfl

/-- The denominators stage at `(t, e)`: the sum of the token's 64 exponentials. -/
theorem denom_apply (t : Fin 16384) (e : Fin 64) :
    val_main_v14 (F := Ideal) x W b (ix2 t e)
      = ∑ e' : Fin 64, Ideal.exp (score x W b t e' - rowMax (score x W b t)) := by
  have e1 : idx_main_v13 (idx_main_v14 (ix2 t e)) = ix1 t :=
    funext fun a => Fin.ext (by match a with | ⟨0, _⟩ => rfl)
  have e2 : ∀ k : Fin 64, idx_main_v12 (ix1 t) k = ix2 t k := fun k =>
    funext fun a => Fin.ext (by match a with | ⟨0, _⟩ => rfl | ⟨1, _⟩ => rfl)
  rw [val_main_v14_apply, val_main_v13_apply, e1, val_main_v12_apply]
  show Ideal.ofBits .f32 0x00000000#32 + _ = _
  rw [Ideal.ofBits_zero_f32, zero_add]
  exact Finset.sum_congr rfl fun k _ => by rw [e2, exps_apply]

/-- The reference's result stage is the gate function. -/
theorem result_eq : val_main_v15 (F := Ideal) x W b = gate x W b := by
  funext i
  obtain ⟨t, e, rfl⟩ : ∃ (t : Fin 16384) (e : Fin 64), i = ix2 t e := ⟨i 0, i 1, eq_ix2 i⟩
  rw [val_main_v15_apply, exps_apply, denom_apply]
  rfl

end Cert.ReferenceIdeal.Gate

end
-- ==== Proof.KernelPieces.lean ====
/-
  What the kernel body leaves behind at a grid point, as values of what it loaded.

  At a point of the first half (`k = 0`) the body stores one whole block into the scratch accumulator: the product of
  the half of the weights it loaded with the point's block of tokens. At a point of the second half (`k = 1`) it stores
  one whole block into the output: the softmax of (scratch + product + bias). Each is a single store covering its
  buffer, so the buffer afterwards IS the stored value; the loads through whole buffers read their contents, and the
  load of the weights reads the 2048 columns of the half the point is in.
-/
import proofs.«155116_g34153579938012_cont_8to1_b_1539_14_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The columns of the weights the body loads at grid point `i`: 2048 consecutive ones from the offset the point computes. -/
def wHalf (i : grid0.Coords) (x1 : Vec F S64x4096 .f32) : Vec F S64x2048 .f32 :=
  View.ld x1 (Rect.unit (s := S64x4096) (k0_off1 i) S64x2048.size (k0_off1_inb i))

/-- First-half points: the scratch accumulator is left holding the half product. -/
theorem scratch_A (c : Dev nD) (i : grid0.Coords) (arg2 : Memref sig .tc .vmem S1024x2048 .f32) (harg2 : arg2.IsWhole) (arg3 : Memref sig .tc .vmem S64x4096 .f32) (harg3 : arg3.IsWhole) (arg4 : Memref sig .tc .vmem S1x64 .f32) (harg4 : arg4.IsWhole) (arg5 : Memref sig .tc .vmem S64x1024 .f32) (harg5 : arg5.IsWhole) (arg6 : Memref sig .tc .vmem S64x1024 .f32) (harg6 : arg6.IsWhole) (hc0 : cond0_0 i) (hc1 : ¬cond0_1 i) (hc2 : ¬cond0_2 i)
    (x0 : Vec F S1024x2048 .f32) (x1 : Vec F S64x4096 .f32) (x2 : Vec F S1x64 .f32) :
    sout0_A_0 c i arg2 harg2 arg3 harg3 arg4 harg4 arg5 harg5 arg6 harg6 hc0 hc1 hc2 x0 x1 x2 = k0_pay2 (wHalf i x1) x0 := by
  unfold sout0_A_0
  rw [View.read_writes_eq_canon _ _ _ (scover0_A_0 c i arg2 harg2 arg3 harg3 arg4 harg4 arg5 harg5 arg6 harg6 hc0 hc1 hc2 x0 x1 x2)]
  unfold kernelRun0_A
  dsimp only
  rw [View.canon_unit_zero hz]
  simp only [View.readAt_eq_ld, harg2.read_unread, harg3.read_unread, View.ld_unit_zero (S := S1024x2048) hz]
  rfl

/-- Second-half points: the output block is left holding the softmax of accumulator + half product + bias. -/
theorem out_B (c : Dev nD) (i : grid0.Coords) (arg2 : Memref sig .tc .vmem S1024x2048 .f32) (harg2 : arg2.IsWhole) (arg3 : Memref sig .tc .vmem S64x4096 .f32) (harg3 : arg3.IsWhole) (arg4 : Memref sig .tc .vmem S1x64 .f32) (harg4 : arg4.IsWhole) (arg5 : Memref sig .tc .vmem S64x1024 .f32) (harg5 : arg5.IsWhole) (arg6 : Memref sig .tc .vmem S64x1024 .f32) (harg6 : arg6.IsWhole) (hc0 : ¬cond0_0 i) (hc1 : cond0_1 i) (hc2 : ¬cond0_2 i)
    (x0 : Vec F S1024x2048 .f32) (x1 : Vec F S64x4096 .f32) (x2 : Vec F S1x64 .f32) (xs0 : Vec F S64x1024 .f32) :
    out0_B_3 c i arg2 harg2 arg3 harg3 arg4 harg4 arg5 harg5 arg6 harg6 hc0 hc1 hc2 x0 x1 x2 xs0 = k0_pay3 (wHalf i x1) x0 xs0 x2 := by
  unfold out0_B_3
  rw [View.read_writes_eq_canon _ _ _ (cover0_B_3 c i arg2 harg2 arg3 harg3 arg4 harg4 arg5 harg5 arg6 harg6 hc0 hc1 hc2 x0 x1 x2 xs0)]
  unfold kernelRun0_B
  dsimp only
  rw [View.canon_unit_zero hz]
  simp only [View.readAt_eq_ld, harg2.read_unread, harg3.read_unread, harg4.read_unread, harg6.read_unread,
    View.ld_unit_zero (S := S1024x2048) hz, View.ld_unit_zero (S := S64x1024) hz, View.ld_unit_zero (S := S1x64) hz]
  rfl

end Cert.KernelIdeal.Pieces

end
-- ==== Proof.LibColumnBroadcast.lean ====
/-
  A general layout lemma: a column broadcast along a new trailing extent, read at an index.
-/
import Idealize.ShloMosaic.Lib.Pipeline.Value
import Idealize.ShloMosaic.Lib.ValueIdx

noncomputable section

namespace Cert.Lib

open Idealize.ShloMosaic Idealize.ShloMosaic.ValueIdx

/-- An `[a, 1]` column broadcast to `[a, b]` reads, at `(p, c)`, the column's entry `p`, whatever `c`:
    the broadcast copies the one entry of each row along the row. Holds at any extents `a`, `b`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelPayload.lean ====
/-
  The arithmetic of the kernel body, read one entry at a time over the extended reals.

  The half product at (expert `e`, token `r` of the block) is the sum over the 2048 coordinates of the loaded half of
  weight times token coordinate. The second-half store is, column by column (one column per token of the block), the
  softmax over the 64 experts of: what the accumulator held + the new half product + the expert's bias. The maximum and
  the sum run down a column (over the experts' axis) and are spread back over the column's 64 entries.
-/
import proofs.«155116_g34153579938012_cont_8to1_b_1539_14_alg».proof.Proof.Gen.KernelIdeal.Skeleton
import proofs.«155116_g34153579938012_cont_8to1_b_1539_14_alg».proof.Proof.Softmax
import proofs.«155116_g34153579938012_cont_8to1_b_1539_14_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Gating Cert.Lib

/-! ## The body's values, named (at any float instance) -/

section AnyInstance
variable {F : FTy → Type} [FloatOps F]

/-- The greatest entry of each column (over the 64 experts), from −∞. -/
def colMax (z : FVec F S64x1024 .f32) : FVec F S1024 .f32 :=
  multiReduction .maximumf [0] S1024 z 0xFF800000#32 reduces_S64x1024_S1024 (.inl rfl) rfl

/-- The sum of each column (over the 64 experts). -/
def colSum (u : FVec F S64x1024 .f32) : FVec F S1024 .f32 :=
  multiReduction .add [0] S1024 u 0x00000000#32 reduces_S64x1024_S1024 (.inl rfl) rfl

/-- One value per column, copied down the column. -/
def spread (v : FVec F S1024 .f32) : FVec F S64x1024 .f32 :=
  broadcastTo S64x1024 (shapeCast S1x1024 v shapeCasts_S1024_S1x1024) broadcasts_S1x1024_S64x1024

/-- Each entry less its column's greatest, exponentiated. -/
def colExp (z : FVec F S64x1024 .f32) : FVec F S64x1024 .f32 := exp (subf z (spread (colMax z)))

/-- The softmax down each column. -/
def colSoftmax (z : FVec F S64x1024 .f32) : FVec F S64x1024 .f32 := divf (colExp z) (spread (colSum (colExp z)))

/-- The bias row as a column, copied along the tokens. -/
def biasBlock (bias : Vec F S1x64 .f32) : FVec F S64x1024 .f32 :=
  broadcastTo S64x1024 (transpose S64x1 [1, 0] (shapeCast S1x64 bias shapeCasts_S1x64_S1x64) transposes_S1x64_p1_0_S64x1)
    broadcasts_S64x1_S64x1024

/-- The block of logits: accumulator + half product + bias. -/
def blockLogits (w : Vec F S64x2048 .f32) (xb : Vec F S1024x2048 .f32) (acc : Vec F S64x1024 .f32) (bias : Vec F S1x64 .f32) :
    FVec F S64x1024 .f32 :=
  addf (addf acc (k0_pay1 w xb)) (biasBlock bias)

/-- The second-half store is the column softmax of the block of logits. -/
theorem pay3_eq (w : Vec F S64x2048 .f32) (xb : Vec F S1024x2048 .f32) (acc : Vec F S64x1024 .f32) (bias : Vec F S1x64 .f32) :
    k0_pay3 w xb acc bias = colSoftmax (blockLogits w xb acc bias) := rfl

/-- The first-half store is the half product. -/
theorem pay2_eq (w : Vec F S64x2048 .f32) (xb : Vec F S1024x2048 .f32) : k0_pay2 w xb = k0_pay1 w xb :=
  shapeCast_self _ _

end AnyInstance

/-! ## Read at an index, over the extended reals -/

/-- The matrix product's dimension numbers: both operands contract their second axis. -/
abbrev dotWX : DotDims S64x2048 S1024x2048 S64x1024 := dot_S64x2048_S1024x2048_S64x1024_1_1_0_0_n_n

theorem lhs0 (j : S64x1024.Idx) (q : dotWX.contr.Idx) : (dotWX.lhsIdx j q 0).val = (j 0).val := by
  unfold DotDims.lhsIdx
  rw [dif_neg (show ¬(0 : Fin S64x2048.rank) ∈ dotWX.lhsBatch by decide),
    dif_pos (show (0 : Fin S64x2048.rank) ∈ dotWX.lhsNonContracting by decide)]
  rfl

theorem rhs0 (j : S64x1024.Idx) (q : dotWX.contr.Idx) : (dotWX.rhsIdx j q 0).val = (j 1).val := by
  unfold DotDims.rhsIdx
  rw [dif_neg (show ¬(0 : Fin S1024x2048.rank) ∈ dotWX.rhsBatch by decide),
    dif_pos (show (0 : Fin S1024x2048.rank) ∈ dotWX.rhsNonContracting by decide)]
  rfl

/-- The half product at expert `e`, token `r`: `∑ d, w e d · xb r d`. -/
theorem halfProduct_apply (w : FVec Ideal S64x2048 .f32) (xb : FVec Ideal S1024x2048 .f32) (e : Fin 64) (r : Fin 1024) :
    k0_pay1 (F := Ideal) w xb (ix2 e r) = ∑ d : Fin 2048, w (ix2 e d) * xb (ix2 r d) := by
  show FloatOps.matmul dotWX none w xb (constant S64x1024 .f32 0x00000000#32) (ix2 e r) = _
  refine (Ideal.matmul_constant_zero_apply dotWX none w xb (ix2 e r)).trans ?_
  rw [← Equiv.sum_comp (contrEquiv1 dotWX 2048 rfl rfl).symm]
  refine Finset.sum_congr rfl fun k _ => ?_
  have hk := contrEquiv1_symm_val dotWX 2048 rfl rfl k
  have el : dotWX.lhsIdx (ix2 e r) ((contrEquiv1 dotWX 2048 rfl rfl).symm k) = ix2 e k := funext fun a => Fin.ext (by
    match a with
    | ⟨0, _⟩ => exact lhs0 _ _
    | ⟨1, _⟩ => exact (dotWX.lhsIdx_val_of_single rfl _ _).trans hk)
  have er : dotWX.rhsIdx (ix2 e r) ((contrEquiv1 dotWX 2048 rfl rfl).symm k) = ix2 r k := funext fun a => Fin.ext (by
    match a with
    | ⟨0, _⟩ => exact rhs0 _ _
    | ⟨1, _⟩ => exact (dotWX.rhsIdx_val_of_single rfl _ _).trans hk)
  rw [el, er]

/-- Entry `e` of column `r`, as the reductions over the experts' axis index it. -/
theorem lift_col (r : Fin 1024) (e : Fin 64) : reduces_S64x1024_S1024.lift (ix1 r) e = ix2 e r :=
  funext fun a => Fin.ext (by match a with | ⟨0, _⟩ => rfl | ⟨1, _⟩ => rfl)

theorem spread_apply (v : FVec Ideal S1024 .f32) (e : Fin 64) (r : Fin 1024) : spread v (ix2 e r) = v (ix1 r) := by
  unfold spread
  rw [broadcastTo_1b_ab_apply, shapeCast_a_1a_apply]

theorem colMax_apply (z : FVec Ideal S64x1024 .f32) (r : Fin 1024) :
    colMax z (ix1 r) = rowMax (fun e => z (ix2 e r)) := by
  unfold colMax
  refine (Ideal.multiReduction_maximumf_single z 0xFF800000#32 reduces_S64x1024_S1024 (.inl rfl) rfl (ix1 r)).trans ?_
  unfold rowMax
  refine congrArg (fun f => (Finset.univ : Finset (Fin 64)).fold max (Ideal.ofBits .f32 0xFF800000#32) f)
    (funext fun e : Fin 64 => ?_)
  exact congrArg z (lift_col r e)

theorem colExp_apply (z : FVec Ideal S64x1024 .f32) (e : Fin 64) (r : Fin 1024) :
    colExp z (ix2 e r) = Ideal.exp (z (ix2 e r) - rowMax (fun e' => z (ix2 e' r))) := by
  show Ideal.exp (z (ix2 e r) - spread (colMax z) (ix2 e r)) = _
  rw [spread_apply, colMax_apply]

theorem colSum_apply (u : FVec Ideal S64x1024 .f32) (r : Fin 1024) :
    colSum u (ix1 r) = ∑ e : Fin 64, u (ix2 e r) := by
  unfold colSum
  refine (Ideal.multiReduction_add_single u 0x00000000#32 reduces_S64x1024_S1024 (.inl rfl) rfl (ix1 r)).trans ?_
  exact Finset.sum_congr rfl fun e _ => congrArg u (lift_col r e)

/-- The column softmax at (e, r) is the softmax of column `r` at expert `e`. -/
theorem colSoftmax_apply (z : FVec Ideal S64x1024 .f32) (e : Fin 64) (r : Fin 1024) :
    colSoftmax z (ix2 e r) = softmax (fun e' => z (ix2 e' r)) e := by
  show Ideal.div (colExp z (ix2 e r)) (spread (colSum (colExp z)) (ix2 e r)) = _
  rw [spread_apply, colSum_apply, colExp_apply]
  unfold softmax
  exact congrArg (Ideal.div _) (Finset.sum_congr rfl fun e' _ => colExp_apply z e' r)

theorem biasBlock_apply (bias : FVec Ideal S1x64 .f32) (e : Fin 64) (r : Fin 1024) :
    biasBlock bias (ix2 e r) = bias (ix2 (0 : Fin 1) e) := by
  unfold biasBlock
  rw [broadcastTo_a1_ab_apply, transpose_ix2_apply, shapeCast_self]

/-- The block of logits at (e, r). -/
theorem blockLogits_apply (w : FVec Ideal S64x2048 .f32) (xb : FVec Ideal S1024x2048 .f32) (acc : FVec Ideal S64x1024 .f32)
    (bias : FVec Ideal S1x64 .f32) (e : Fin 64) (r : Fin 1024) :
    blockLogits w xb acc bias (ix2 e r)
      = (acc (ix2 e r) + ∑ d : Fin 2048, w (ix2 e d) * xb (ix2 r d)) + bias (ix2 (0 : Fin 1) e) := by
  show (acc (ix2 e r) + k0_pay1 (F := Ideal) w xb (ix2 e r)) + biasBlock bias (ix2 e r) = _
  rw [halfProduct_apply, biasBlock_apply]

end Cert.KernelIdeal.Payload

end
-- ==== Proof.KernelPoint.lean ====
/-
  One second-half grid point, in the abstract.

  Suppose the two loaded weight halves are columns [0, 2048) and [2048, 4096) of `W`, the two token blocks are rows
  [1024 i, 1024 i + 1024) of `x` over those same column halves, and the bias row is `b`. Then what the second-half point
  stores at (expert `e`, token `r` of the block) is the gate of token `1024 i + r` for expert `e`: the block's logits at
  (e', r) are the two half scores plus the bias, which is the score, and the column softmax is the row softmax of the
  specification read down the experts.
-/
import proofs.«155116_g34153579938012_cont_8to1_b_1539_14_alg».proof.Proof.KernelPayload

noncomputable section

open scoped BigOperators

namespace Cert.KernelIdeal.Point

open Cert.KernelIdeal Cert.KernelIdeal.Gen Cert.KernelIdeal.Payload Idealize.ShloMosaic Idealize.ShloMosaic.ValueIdx Cert.Gating

/-- Token `r` of token block `i`: row `1024 i + r` of `x`. -/
abbrev tok (i : Fin 16) (r : Fin 1024) : Fin 16384 := ⟨1024 * i.val + r.val, by have := i.isLt; have := r.isLt; omega⟩

theorem point_value (X : Tokens) (W : Weights) (B : Biases)
    (w0 w1 : FVec Ideal S64x2048 .f32) (xb0 xb1 : FVec Ideal S1024x2048 .f32) (bias : FVec Ideal S1x64 .f32) (i : Fin 16)
    (hw0 : ∀ (e : Fin 64) (d : Fin 2048), w0 (ix2 e d) = W (ix2 e (col 0 d)))
    (hw1 : ∀ (e : Fin 64) (d : Fin 2048), w1 (ix2 e d) = W (ix2 e (col 1 d)))
    (hx0 : ∀ (r : Fin 1024) (d : Fin 2048), xb0 (ix2 r d) = X (ix2 (tok i r) (col 0 d)))
    (hx1 : ∀ (r : Fin 1024) (d : Fin 2048), xb1 (ix2 r d) = X (ix2 (tok i r) (col 1 d)))
    (hb : ∀ e : Fin 64, bias (ix2 (0 : Fin 1) e) = B (ix1 e))
    (e : Fin 64) (r : Fin 1024) :
    k0_pay3 (F := Ideal) w1 xb1 (k0_pay2 (F := Ideal) w0 xb0) bias (ix2 e r) = gateT X W B (ix2 e (tok i r)) := by
  show colSoftmax (blockLogits (F := Ideal) w1 xb1 (k0_pay2 (F := Ideal) w0 xb0) bias) (ix2 e r) = softmax (score X W B (tok i r)) e
  rw [colSoftmax_apply]
  refine congrArg (fun z => softmax z e) (funext fun e' : Fin 64 => ?_)
  rw [blockLogits_apply, pay2_eq, halfProduct_apply, score_eq_halves, hb]
  unfold halfScore
  simp only [hw0, hw1, hx0, hx1]

end Cert.KernelIdeal.Point

end
-- ==== Proof.KernelArray.lean ====
/-
  The kernel's result array, from the grid points up.

  The grid is 16 token blocks by 2 halves, visited in order, so point `t` is token block `t / 2`, half `t % 2`. An even
  point leaves the half product of its blocks in the accumulator; the odd point after it turns accumulator + its own half
  product + bias into the softmax and that block is written back as columns [1024 (t/2), 1024 (t/2) + 1024) of the 64 × 16384
  array. Each odd point's block is therefore the corresponding block of the transposed gates; the sixteen blocks tile
  the array; and the host's final transpose turns it into the gates, tokens by experts.
-/
import proofs.«155116_g34153579938012_cont_8to1_b_1539_14_alg».proof.Proof.Gen.KernelIdeal.Frame
import proofs.«155116_g34153579938012_cont_8to1_b_1539_14_alg».proof.Proof.KernelPieces
import proofs.«155116_g34153579938012_cont_8to1_b_1539_14_alg».proof.Proof.KernelPoint
import Idealize.ShloMosaic.Lib.Pipeline.Value
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Pieces Cert.KernelIdeal.Payload Cert.KernelIdeal.Point Cert.Gating

/-! ## From the cases' found pieces to one value per odd point (any float instance) -/

section AnyInstance
variable {F : FTy → Type} [FloatOps F]
variable (m : (ℓ : Loc nD τ sig) → Buf (Elt F) ℓ)

/-- The point before `t`. -/
def prev (t : Fin cfg0.N) : Fin cfg0.N := ⟨t.val - 1, Nat.lt_of_le_of_lt (Nat.sub_le _ _) t.isLt⟩

/-- At an odd point the output's buffer holds the softmax store over: this point's weight half and token block,
    the half product the even point before left in the accumulator, and the bias row. -/
theorem out_odd (c : Dev nD) (t : Fin cfg0.N) (h1 : t.val % 2 = 1) :
    (outsAt0 m c t.val t.isLt).1
      = k0_pay3 (wHalf (grid0.coords t) (iblk m c 1 t)) (iblk m c 0 t)
          (k0_pay2 (wHalf (grid0.coords (prev t)) (iblk m c 1 (prev t))) (iblk m c 0 (prev t))) (iblk m c 2 t) := by
  have h0 : ¬t.val % 2 = 0 := by omega
  have hp0 : (prev t).val % 2 = 0 := by show (t.val - 1) % 2 = 0; omega
  have hp1 : ¬(prev t).val % 2 = 1 := by omega
  have hA : (outsAt0 m c (t.val - 1) (Nat.lt_of_le_of_lt (Nat.sub_le _ _) t.isLt)).2
      = k0_pay2 (wHalf (grid0.coords (prev t)) (iblk m c 1 (prev t))) (iblk m c 0 (prev t)) := by
    show (outsAt0 m c (prev t).val (prev t).isLt).2 = _
    rw [outsAt0_A m c (prev t) hp0 hp1]
    dsimp only
    exact scratch_A c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _) ((hcond0_0 (prev t)).mpr hp0) (fun h => hp1 ((hcond0_1 (prev t)).mp h)) (hcond0_2 (prev t)) (iblk m c 0 (prev t)) (iblk m c 1 (prev t)) (iblk m c 2 (prev t))
  rw [outsAt0_B m c t h0 h1]
  dsimp only
  rw [hA]
  exact out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (hcond0_2 t) (iblk m c 0 t) (iblk m c 1 t) (iblk m c 2 t) _

end AnyInstance

/-! ## The blocks, read in the arrays the region finds (extended reals) -/

section AtIdeal
variable (m : (ℓ : Loc nD τ sig) → Buf (Elt Ideal) ℓ) (ρ : Dev nD → PrngReg)

/-- The printed index maps and the weight load's offsets, decided once over the 32 points: the token window sits at
    block (t / 2, t % 2), the weights and the bias at their one block, the output at block (0, t / 2), and the weights
    are loaded from column 2048 (t % 2). -/
theorem grid_facts : ∀ t : Fin cfg0.N,
    win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val / 2
    ∧ k0_off1 (grid0.coords t) (0 : Fin 2) = 0 ∧ k0_off1 (grid0.coords t) (1 : Fin 2) = 2048 * (t.val % 2) :=
  (by decide +kernel : ∀ t : Fin grid0.N, _)

theorem lt32 (t : Fin cfg0.N) : t.val < 32 := lt_of_lt_of_eq t.isLt (show cfg0.N = 32 from N_0)

/-- The token block of point `t`. -/
def blkOf (t : Fin cfg0.N) : Fin 16 := ⟨t.val / 2, by have := lt32 t; omega⟩

/-- The token window's block at point `t` (half `k`): rows 1024 (t/2) + r, columns 2048 k + d of `x`. -/
theorem xblk_apply (c : Dev nD) (t : Fin cfg0.N) (k : Fin 2) (hk : t.val % 2 = k.val) (r : Fin 1024) (d : Fin 2048) :
    (iblk m c 0 t : FVec Ideal S1024x2048 .f32) (ix2 r d) = V m c main_arg0 (ix2 (tok (blkOf t) r) (col k d)) := by
  obtain ⟨e0, e1, -⟩ := grid_facts t
  unfold iblk
  show V m c main_arg0 (((cfg0.win 0).blk t).view.emb (ix2 r d)) = V m c main_arg0 _
  refine congrArg (V m c main_arg0) (funext fun a => Fin.ext ?_)
  match a with
  | ⟨0, _⟩ => show win0_0.index t (0 : Fin 2) * 1024 + 1 * r.val = 1024 * (t.val / 2) + r.val; rw [e0]; omega
  | ⟨1, _⟩ => show win0_0.index t (1 : Fin 2) * 2048 + 1 * d.val = 2048 * k.val + d.val; rw [e1, hk]; omega

/-- The weights the body loads at point `t` (half `k`): columns 2048 k + d of `W`. -/
theorem wblk_apply (c : Dev nD) (t : Fin cfg0.N) (k : Fin 2) (hk : t.val % 2 = k.val) (e : Fin 64) (d : Fin 2048) :
    (wHalf (grid0.coords t) (iblk m c 1 t) : FVec Ideal S64x2048 .f32) (ix2 e d) = V m c main_arg1 (ix2 e (col k d)) := by
  obtain ⟨-, -, e2, e3, -, -, -, -, o0, o1⟩ := grid_facts t
  unfold wHalf iblk
  show V m c main_arg1 (((cfg0.win 1).blk t).view.emb _) = V m c main_arg1 _
  refine congrArg (V m c main_arg1) (funext fun a => Fin.ext ?_)
  match a with
  | ⟨0, _⟩ => show win0_1.index t (0 : Fin 2) * 64 + 1 * (k0_off1 (grid0.coords t) (0 : Fin 2) + 1 * e.val) = e.val; rw [e2, o0]; omega
  | ⟨1, _⟩ => show win0_1.index t (1 : Fin 2) * 4096 + 1 * (k0_off1 (grid0.coords t) (1 : Fin 2) + 1 * d.val) = 2048 * k.val + d.val; rw [e3, o1, hk]; omega

/-- The bias window's block is the bias vector, reshaped to a row by the host line before the region. -/
theorem bias_apply (c : Dev nD) (t : Fin cfg0.N) (e : Fin 64) :
    (iblk m c 2 t : FVec Ideal S1x64 .f32) (ix2 (0 : Fin 1) e) = m ((c : Thread nD τ).loc main_arg2) (ix1 e) := by
  obtain ⟨-, -, -, -, e4, e5, -⟩ := grid_facts t
  have hv : (V m c main_v0 : S1x64.Idx → EReal) = shapeCast S1x64 (m ((c : Thread nD τ).loc main_arg2)) shapeCasts_S64_S1x64 := by
    show StableHlo.after hostOps0 (fun b => m (c, b)) (Proc.devRef .tc main_v0) = _
    after_results; rfl
  unfold iblk
  show V m c main_v0 (((cfg0.win 2).blk t).view.emb (ix2 (0 : Fin 1) e)) = _
  rw [show ((cfg0.win 2).blk t).view.emb (ix2 (0 : Fin 1) e) = ix2 (0 : Fin 1) e from funext fun a => Fin.ext (by
    match a with
    | ⟨0, _⟩ => show win0_2.index t (0 : Fin 2) * 1 + 1 * 0 = 0; rw [e4]
    | ⟨1, _⟩ => show win0_2.index t (1 : Fin 2) * 64 + 1 * e.val = e.val; rw [e5]; omega)]
  rw [hv, shapeCast_a_1a_apply]

/-! ## What a flushing point writes back, the cover, the array -/

/-- What an odd point writes back is its block of the transposed gates of the arrays the region finds. -/
theorem flushed_eq (c : Dev nD) (t : Fin cfg0.N) (hf : (cfg0.win 3).flush t = true) :
    (dats m 0 c).flushed 3 t = ((cfg0.win 3).blk t).view.read (Elt Ideal)
      (gateT (V m c main_arg0) (V m c main_arg1) (m ((c : Thread nD τ).loc main_arg2))) := by
  have h1 : t.val % 2 = 1 := (flush0_3 t).mp hf
  have hp : (prev t).val % 2 = (0 : Fin 2).val := by show (t.val - 1) % 2 = 0; omega
  have hb' : blkOf (prev t) = blkOf t := Fin.ext (by show (t.val - 1) / 2 = t.val / 2; omega)
  obtain ⟨-, -, -, -, -, -, e6, e7, -⟩ := grid_facts t
  show (cfg0.win 3).cut (grid0.coords t) ((dats m 0 c).after 3 t) = _
  rw [after0_3, out_odd m c t h1]
  refine funext fun (j : S64x1024.Idx) => ?_
  obtain ⟨e, r, rfl⟩ : ∃ (e : Fin 64) (r : Fin 1024), j = ix2 e r := ⟨j 0, j 1, eq_ix2 j⟩
  have hemb : ((cfg0.win 3).blk t).view.emb (ix2 e r) = ix2 e (tok (blkOf t) r) := funext fun a => Fin.ext (by
    match a with
    | ⟨0, _⟩ => show win0_3.index t (0 : Fin 2) * 64 + 1 * e.val = e.val; rw [e6]; omega
    | ⟨1, _⟩ => show win0_3.index t (1 : Fin 2) * 1024 + 1 * r.val = 1024 * (t.val / 2) + r.val; rw [e7]; omega)
  show _ = gateT (V m c main_arg0) (V m c main_arg1) (m ((c : Thread nD τ).loc main_arg2)) (((cfg0.win 3).blk t).view.emb (ix2 e r))
  rw [hemb]
  exact point_value (V m c main_arg0) (V m c main_arg1) (m ((c : Thread nD τ).loc main_arg2))
    (wHalf (grid0.coords (prev t)) (iblk m c 1 (prev t))) (wHalf (grid0.coords t) (iblk m c 1 t))
    (iblk m c 0 (prev t)) (iblk m c 0 t) (iblk m c 2 t) (blkOf t)
    (fun e d => wblk_apply m c (prev t) 0 hp e d)
    (fun e d => wblk_apply m c t 1 h1 e d)
    (fun r d => hb' ▸ xblk_apply m c (prev t) 0 hp r d)
    (fun r d => xblk_apply m c t 1 h1 r d)
    (fun e => bias_apply m c t e) e r

/-- An index of the 64 × 16384 array is in point `t`'s block iff each coordinate is in the block's range. -/
theorem mem_blk (t : Fin cfg0.N) (i : S64x16384.Idx) :
    i ∈ ((cfg0.win 3).blk t).view.set ↔ ∀ a : Fin 2, win0_3.index t a * S64x1024.size a ≤ (i a).val
      ∧ (i a).val < win0_3.index t a * S64x1024.size a + S64x1024.size a := by
  show i ∈ ((View.whole main_v1).slice (win0_3.rect t)).set ↔ _
  rw [View.set_slice_whole, Rect.mem_set_unit]
  exact Iff.rfl

/-- Column `j` of the array lies in the block of the odd point of token block `j / 1024`. -/
theorem cover (i : S64x16384.Idx) :
    ∃ t : Fin cfg0.N, (cfg0.win 3).flush t = true ∧ i ∈ ((cfg0.win 3).blk t).view.set := by
  have hi0 : (i 0).val < 64 := (i 0).isLt
  have hi1 : (i 1).val < 16384 := (i 1).isLt
  have hN : cfg0.N = 32 := N_0
  have hlt : 2 * ((i 1).val / 1024) + 1 < cfg0.N := by rw [hN]; omega
  obtain ⟨-, -, -, -, -, -, e6, e7, -⟩ := grid_facts ⟨2 * ((i 1).val / 1024) + 1, hlt⟩
  refine ⟨⟨2 * ((i 1).val / 1024) + 1, hlt⟩, (flush0_3 _).mpr (by show (2 * ((i 1).val / 1024) + 1) % 2 = 1; omega), ?_⟩
  rw [mem_blk]
  intro a
  match a with
  | ⟨0, _⟩ =>
    show win0_3.index ⟨2 * ((i 1).val / 1024) + 1, hlt⟩ (0 : Fin 2) * 64 ≤ (i 0).val
      ∧ (i 0).val < win0_3.index ⟨2 * ((i 1).val / 1024) + 1, hlt⟩ (0 : Fin 2) * 64 + 64
    rw [e6]; omega
  | ⟨1, _⟩ =>
    show win0_3.index ⟨2 * ((i 1).val / 1024) + 1, hlt⟩ (1 : Fin 2) * 1024 ≤ (i 1).val
      ∧ (i 1).val < win0_3.index ⟨2 * ((i 1).val / 1024) + 1, hlt⟩ (1 : Fin 2) * 1024 + 1024
    rw [e7]
    show (2 * ((i 1).val / 1024) + 1) / 2 * 1024 ≤ (i 1).val ∧ (i 1).val < (2 * ((i 1).val / 1024) + 1) / 2 * 1024 + 1024
    omega

/-- The 64 × 16384 array after the run: the transposed gates. -/
theorem final (c : Dev nD) : (dats m 0 c).arrAt 3 cfg0.N
    = gateT (V m c main_arg0) (V m c main_arg1) (m ((c : Thread nD τ).loc main_arg2)) :=
  (dats m 0 c).arrAt_eq_of_cover 3 _ (fun t hf => flushed_eq m c t hf) cover

/-! ## The host transpose after the region, and the run -/

/-- The program's result: the host transposes the 64 × 16384 array, giving the gates, tokens by experts. -/
theorem tail_eq (c : Dev nD) : Pipeline.afterTail₀ cfgs (dats m) 0 (V0 m) [hostOps1] c main_v2
    = gate (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = gateT (V m c main_arg0) (V m c main_arg1) (m ((c : Thread nD τ).loc main_arg2)) :=
    (Pipeline.withArrays_arr spec0 launch0.win.arr_inj c _ _ 3).trans (final m c)
  refine (congrArg (fun A => transpose S16384x64 [1, 0] A transposes_S64x16384_S16384x64_1_0) hw).trans ?_
  rw [V_main_arg0, V_main_arg1]
  funext i
  obtain ⟨t, e, rfl⟩ : ∃ (t : Fin 16384) (e : Fin 64), i = ix2 t e := ⟨i 0, i 1, eq_ix2 i⟩
  rw [transpose_ix2_apply]
  rfl

/-- The kernel program's run, read: its result buffer ends holding the gates of the argument arrays, and the
    arguments end unchanged. -/
theorem run : θ_run defs (onTc (τ := τ) (main (F := Ideal))) ⟨m, fun _ => 0, ρ⟩ fun r => ∀ c : Dev nD,
      r.2.mem ((c.tc : Thread nD τ).loc main_v2)
        = gate (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end AtIdeal

end Cert.KernelIdeal.Result

end
-- ==== Proof.lean ====
/-
  Mixture-of-experts gating: `softmax (x · Wᵀ + b)` over 64 experts, for 16384 tokens of 4096 coordinates.

  The kernel walks a 16 × 2 grid. Over one token block of 1024 rows it contracts the first 2048 coordinates into an
  accumulator, then contracts the last 2048, adds accumulator, new product and bias, and takes the softmax down the
  experts; it works on the transposed tile (experts by tokens) and the host transposes the 64 × 16384 result at the end.
  The reference contracts all 4096 coordinates at once and takes the softmax along the experts' axis.

  Over the extended reals the two agree entry by entry: a sum over 4096 coordinates is the sum of its two halves, the
  product commutes, the maximum taken once more against −∞ is unchanged, the reference's sum from an initial zero is the
  sum, and both softmaxes are then the same expression of the same scores (Proof/Softmax.lean). No finiteness of the
  inputs is used: the only laws are commutativity and associativity of + and · , which hold at the infinities too.

  The frames of the two kernel programs are the generated ones; the reference's frame is its generated run with the
  result dropped; the idealization rewrote nothing.
-/
import proofs.«155116_g34153579938012_cont_8to1_b_1539_14_alg».proof.Defs
import proofs.«155116_g34153579938012_cont_8to1_b_1539_14_alg».proof.Proof.Gen.Kernel
import proofs.«155116_g34153579938012_cont_8to1_b_1539_14_alg».proof.Proof.Gen.Kernel.Skeleton
import proofs.«155116_g34153579938012_cont_8to1_b_1539_14_alg».proof.Proof.Gen.Kernel.Launch
import proofs.«155116_g34153579938012_cont_8to1_b_1539_14_alg».proof.Proof.Gen.Kernel.Points
import proofs.«155116_g34153579938012_cont_8to1_b_1539_14_alg».proof.Proof.Gen.Kernel.Frame
import proofs.«155116_g34153579938012_cont_8to1_b_1539_14_alg».proof.Proof.Gen.KernelIdeal
import proofs.«155116_g34153579938012_cont_8to1_b_1539_14_alg».proof.Proof.Gen.KernelIdeal.Skeleton
import proofs.«155116_g34153579938012_cont_8to1_b_1539_14_alg».proof.Proof.Gen.KernelIdeal.Launch
import proofs.«155116_g34153579938012_cont_8to1_b_1539_14_alg».proof.Proof.Gen.KernelIdeal.Points
import proofs.«155116_g34153579938012_cont_8to1_b_1539_14_alg».proof.Proof.Gen.KernelIdeal.Frame
import proofs.«155116_g34153579938012_cont_8to1_b_1539_14_alg».proof.Proof.Gen.ReferenceIdeal
import proofs.«155116_g34153579938012_cont_8to1_b_1539_14_alg».proof.Proof.Gen.ReferenceIdeal.Run
import proofs.«155116_g34153579938012_cont_8to1_b_1539_14_alg».proof.Proof.Gen.ReferenceIdeal.Read
import proofs.«155116_g34153579938012_cont_8to1_b_1539_14_alg».proof.Proof.Gen.Pre_finite_inputs
import proofs.«155116_g34153579938012_cont_8to1_b_1539_14_alg».proof.Proof.RefGate
import proofs.«155116_g34153579938012_cont_8to1_b_1539_14_alg».proof.Proof.KernelArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the gates of their (agreeing) arguments in their result buffers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Gate.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
